-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x64 : Shape := ⟨4, ![4, 16, 2048, 64]⟩
abbrev S4x1x1x2048 : Shape := ⟨4, ![4, 1, 1, 2048]⟩
abbrev S_ : Shape := ⟨0, ![]⟩

class Facts : Prop where
  bcast_S_S4x16x2048x64 : S_.BroadcastsInDim S4x16x2048x64 (![] : Fin 0 → Fin S4x16x2048x64.rank)
  reducesTo_S4x16x2048x64_S_d0_1_2_3 : S4x16x2048x64.ReducesTo [0, 1, 2, 3] S_
  h_S_ : 0 < S_.numel

variable [Facts]

def fn {F : FTy → Type} [FloatOps F] (main_arg0 : FVec F S4x16x2048x64 .f32) (main_arg1 : FVec F S4x16x2048x64 .f32) (main_arg2 : FVec F S4x16x2048x64 .f32) (main_arg3 : IVec S4x1x1x2048 32) : IVec S_ 1 :=
  let main_v0 : FVec F S4x16x2048x64 .f32 := Host.absf main_arg0
  let main_cst : FVec F S_ .f32 := constant S_ .f32 0x7F800000#32
  let main_v1 : FVec F S4x16x2048x64 .f32 := broadcastInDim S4x16x2048x64 ![] bcast_S_S4x16x2048x64 main_cst
  let main_v2 : IVec S4x16x2048x64 1 := cmpf .olt main_v0 main_v1
  let main_c : IVec S_ 1 := constantI S_ 1 1#1
  let main_v3 : IVec S_ 1 := (fun x v => Host.reduce IntOp.andi x v reducesTo_S4x16x2048x64_S_d0_1_2_3 h_S_) main_v2 main_c
  let main_v4 : FVec F S4x16x2048x64 .f32 := Host.absf main_arg1
  let main_cst_0 : FVec F S_ .f32 := constant S_ .f32 0x7F800000#32
  let main_v5 : FVec F S4x16x2048x64 .f32 := broadcastInDim S4x16x2048x64 ![] bcast_S_S4x16x2048x64 main_cst_0
  let main_v6 : IVec S4x16x2048x64 1 := cmpf .olt main_v4 main_v5
  let main_c_1 : IVec S_ 1 := constantI S_ 1 1#1
  let main_v7 : IVec S_ 1 := (fun x v => Host.reduce IntOp.andi x v reducesTo_S4x16x2048x64_S_d0_1_2_3 h_S_) main_v6 main_c_1
  let main_v8 : IVec S_ 1 := andi main_v3 main_v7
  let main_v9 : FVec F S4x16x2048x64 .f32 := Host.absf main_arg2
  let main_cst_2 : FVec F S_ .f32 := constant S_ .f32 0x7F800000#32
  let main_v10 : FVec F S4x16x2048x64 .f32 := broadcastInDim S4x16x2048x64 ![] bcast_S_S4x16x2048x64 main_cst_2
  let main_v11 : IVec S4x16x2048x64 1 := cmpf .olt main_v9 main_v10
  let main_c_3 : IVec S_ 1 := constantI S_ 1 1#1
  let main_v12 : IVec S_ 1 := (fun x v => Host.reduce IntOp.andi x v reducesTo_S4x16x2048x64_S_d0_1_2_3 h_S_) main_v11 main_c_3
  let main_v13 : IVec S_ 1 := andi main_v8 main_v12
  main_v13
-- ==== Kernel.lean ====
abbrev S4x16x2048x64 : Shape := ⟨4, ![4, 16, 2048, 64]⟩
abbrev S4x1x1x2048 : Shape := ⟨4, ![4, 1, 1, 2048]⟩
abbrev S4x16x2048x2048 : Shape := ⟨4, ![4, 16, 2048, 2048]⟩
abbrev S1x1x256x64 : Shape := ⟨4, ![1, 1, 256, 64]⟩
abbrev S1x1x2048x64 : Shape := ⟨4, ![1, 1, 2048, 64]⟩
abbrev S1x1x1x2048 : Shape := ⟨4, ![1, 1, 1, 2048]⟩
abbrev S1x1x256x2048 : Shape := ⟨4, ![1, 1, 256, 2048]⟩
abbrev S256x64 : Shape := ⟨2, ![256, 64]⟩
abbrev S2048x64 : Shape := ⟨2, ![2048, 64]⟩
abbrev S2048 : Shape := ⟨1, ![2048]⟩
abbrev S64x2048 : Shape := ⟨2, ![64, 2048]⟩
abbrev S256x2048 : Shape := ⟨2, ![256, 2048]⟩
abbrev S1x2048 : Shape := ⟨2, ![1, 2048]⟩
abbrev S256 : Shape := ⟨1, ![256]⟩
abbrev S256x1 : Shape := ⟨2, ![256, 1]⟩

abbrev nBuf : Space → Nat
  | .hbm => 6
  | .vmem => 12
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x1x1x2048, .i32⟩
  | .hbm, ⟨4, _⟩ => ⟨S4x16x2048x64, .f32⟩
  | .hbm, ⟨5, _⟩ => ⟨S4x16x2048x2048, .f32⟩
  | .local _ .vmem, ⟨0, _⟩ => ⟨S1x1x256x64, .f32⟩
  | .local _ .vmem, ⟨1, _⟩ => ⟨S1x1x256x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x1x1x2048, .i32⟩
  | .local _ .vmem, ⟨7, _⟩ => ⟨S1x1x1x2048, .i32⟩
  | .local _ .vmem, ⟨8, _⟩ => ⟨S1x1x256x64, .f32⟩
  | .local _ .vmem, ⟨9, _⟩ => ⟨S1x1x256x64, .f32⟩
  | .local _ .vmem, ⟨10, _⟩ => ⟨S1x1x256x2048, .f32⟩
  | .local _ .vmem, ⟨11, _⟩ => ⟨S1x1x256x2048, .f32⟩
  | _, _ => ⟨S4x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 16, 8], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  inb_S1x1x256x64_S1x1x256x64_0_0_0_0 : ∀ a, (![0, 0, 0, 0] : Fin 4 → Nat) a + S1x1x256x64.size a ≤ S1x1x256x64.size a
  h_S1x1x256x64 : 0 < S1x1x256x64.numel
  shapeCasts_S1x1x256x64_S256x64 : S1x1x256x64.ShapeCasts S256x64
  bitsLt_bf16_f32 : FTy.bits .bf16 < FTy.bits .f32
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  inb_S1x1x1x2048_S1x1x1x2048_0_0_0_0 : ∀ a, (![0, 0, 0, 0] : Fin 4 → Nat) a + S1x1x1x2048.size a ≤ S1x1x1x2048.size a
  h_S1x1x1x2048 : 0 < S1x1x1x2048.numel
  shapeCasts_S1x1x1x2048_S2048 : S1x1x1x2048.ShapeCasts S2048
  transposes_S2048x64_p1_0_S64x2048 : S2048x64.Transposes [1, 0] S64x2048
  iota_S256x2048_d0_w32 : S256x2048.Iotas .tc 32 [0]
  iota_S256x2048_d1_w32 : S256x2048.Iotas .tc 32 [1]
  natLt_1_32 : 1 < 32
  shapeCasts_S2048_S1x2048 : S2048.ShapeCasts S1x2048
  broadcasts_S1x2048_S256x2048 : S1x2048.Broadcasts S256x2048
  reduces_S256x2048_S256 : S256x2048.Reduces [1] S256
  shapeCasts_S256_S256x1 : S256.ShapeCasts S256x1
  broadcasts_S256x1_S256x2048 : S256x1.Broadcasts S256x2048
  inb_S1x1x256x2048_S1x1x256x2048_0_0_0_0 : ∀ a, (![0, 0, 0, 0] : Fin 4 → Nat) a + S1x1x256x2048.size a ≤ S1x1x256x2048.size a
  h_S1x1x256x2048 : 0 < S1x1x256x2048.numel
  shapeCasts_S1x1x256x2048_S256x2048 : S1x1x256x2048.ShapeCasts S256x2048
  shapeCasts_S256x2048_S1x1x256x2048 : S256x2048.ShapeCasts S1x1x256x2048
  shapeCasts_S256x64_S1x1x256x64 : S256x64.ShapeCasts S1x1x256x64
  dot_S256x64_S64x2048_S256x2048_1_0_0_1_n_n_wf : DotDims.WF S256x64 S64x2048 S256x2048 [1] [0] [0] [1] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x256x64.size a ≤ S4x16x2048x64.size a
  hwx0_0 : ∀ i : grid0.Coords, EltTy.bits .f32 = 32 ∨ (Rect.block (s := S4x16x2048x64) S1x1x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S4x16x2048x64.size a
  hwx0_1 : ∀ i : grid0.Coords, EltTy.bits .f32 = 32 ∨ (Rect.block (s := S4x16x2048x64) S1x1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S4x16x2048x64.size a
  hwx0_2 : ∀ i : grid0.Coords, EltTy.bits .f32 = 32 ∨ (Rect.block (s := S4x16x2048x64) S1x1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1x2048.size a ≤ S4x1x1x2048.size a
  hwx0_3 : ∀ i : grid0.Coords, EltTy.bits .i32 = 32 ∨ (Rect.block (s := S4x1x1x2048) S1x1x1x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x256x64.size a ≤ S4x16x2048x64.size a
  hwx0_4 : ∀ i : grid0.Coords, EltTy.bits .f32 = 32 ∨ (Rect.block (s := S4x16x2048x64) S1x1x256x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x256x2048.size a ≤ S4x16x2048x2048.size a
  hwx0_5 : ∀ i : grid0.Coords, EltTy.bits .f32 = 32 ∨ (Rect.block (s := S4x16x2048x2048) S1x1x256x2048.size (cc0_transform_5 i) (hinb0_5 i)).WholeWords (EltTy.packing .f32)

variable [Facts₀]

def dot_S256x64_S64x2048_S256x2048_1_0_0_1_n_n : DotDims S256x64 S64x2048 S256x2048 where
  lhsContracting := [1]
  rhsContracting := [0]
  lhsNonContracting := [0]
  rhsNonContracting := [1]
  lhsBatch := []
  rhsBatch := []
  wf := dot_S256x64_S64x2048_S256x2048_1_0_0_1_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_arg0) S1x1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x1x256x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x1x256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x16x2048x64 : Shape := ⟨4, ![4, 16, 2048, 64]⟩
abbrev S4x1x1x2048 : Shape := ⟨4, ![4, 1, 1, 2048]⟩
abbrev S4x16x2048x2048 : Shape := ⟨4, ![4, 16, 2048, 2048]⟩
abbrev S_ : Shape := ⟨0, ![]⟩
abbrev S2048x2048 : Shape := ⟨2, ![2048, 2048]⟩
abbrev S1x1x2048x2048 : Shape := ⟨4, ![1, 1, 2048, 2048]⟩
abbrev S4x1x2048x2048 : Shape := ⟨4, ![4, 1, 2048, 2048]⟩
abbrev S4x16x2048 : Shape := ⟨3, ![4, 16, 2048]⟩
abbrev S4x16x2048x1 : Shape := ⟨4, ![4, 16, 2048, 1]⟩

abbrev nBuf : Space → Nat
  | .hbm => 47
  | .vmem => 0
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x1x1x2048, .i32⟩
  | .hbm, ⟨4, _⟩ => ⟨S4x16x2048x2048, .f32⟩
  | .hbm, ⟨5, _⟩ => ⟨S_, .f32⟩
  | .hbm, ⟨6, _⟩ => ⟨S_, .f32⟩
  | .hbm, ⟨7, _⟩ => ⟨S4x16x2048x2048, .f32⟩
  | .hbm, ⟨8, _⟩ => ⟨S4x16x2048x2048, .f32⟩
  | .hbm, ⟨9, _⟩ => ⟨S_, .f32⟩
  | .hbm, ⟨10, _⟩ => ⟨S2048x2048, .f32⟩
  | .hbm, ⟨11, _⟩ => ⟨S2048x2048, .i32⟩
  | .hbm, ⟨12, _⟩ => ⟨S_, .i32⟩
  | .hbm, ⟨13, _⟩ => ⟨S2048x2048, .i32⟩
  | .hbm, ⟨14, _⟩ => ⟨S2048x2048, .i32⟩
  | .hbm, ⟨15, _⟩ => ⟨S2048x2048, .i32⟩
  | .hbm, ⟨16, _⟩ => ⟨S2048x2048, .i1⟩
  | .hbm, ⟨17, _⟩ => ⟨S_, .f32⟩
  | .hbm, ⟨18, _⟩ => ⟨S2048x2048, .f32⟩
  | .hbm, ⟨19, _⟩ => ⟨S2048x2048, .f32⟩
  | .hbm, ⟨20, _⟩ => ⟨S4x1x1x2048, .f32⟩
  | .hbm, ⟨21, _⟩ => ⟨S1x1x2048x2048, .f32⟩
  | .hbm, ⟨22, _⟩ => ⟨S4x1x2048x2048, .f32⟩
  | .hbm, ⟨23, _⟩ => ⟨S4x1x2048x2048, .f32⟩
  | .hbm, ⟨24, _⟩ => ⟨S4x1x2048x2048, .f32⟩
  | .hbm, ⟨25, _⟩ => ⟨S_, .f32⟩
  | .hbm, ⟨26, _⟩ => ⟨S4x1x2048x2048, .f32⟩
  | .hbm, ⟨27, _⟩ => ⟨S4x1x2048x2048, .i1⟩
  | .hbm, ⟨28, _⟩ => ⟨S_, .f32⟩
  | .hbm, ⟨29, _⟩ => ⟨S4x16x2048x2048, .i1⟩
  | .hbm, ⟨30, _⟩ => ⟨S4x16x2048x2048, .f32⟩
  | .hbm, ⟨31, _⟩ => ⟨S4x16x2048x2048, .f32⟩
  | .hbm, ⟨32, _⟩ => ⟨S_, .f32⟩
  | .hbm, ⟨33, _⟩ => ⟨S4x16x2048, .f32⟩
  | .hbm, ⟨34, _⟩ => ⟨S_, .f32⟩
  | .hbm, ⟨35, _⟩ => ⟨S4x16x2048, .f32⟩
  | .hbm, ⟨36, _⟩ => ⟨S4x16x2048, .f32⟩
  | .hbm, ⟨37, _⟩ => ⟨S4x16x2048x1, .f32⟩
  | .hbm, ⟨38, _⟩ => ⟨S4x16x2048x2048, .f32⟩
  | .hbm, ⟨39, _⟩ => ⟨S4x16x2048x2048, .f32⟩
  | .hbm, ⟨40, _⟩ => ⟨S4x16x2048x2048, .f32⟩
  | .hbm, ⟨41, _⟩ => ⟨S_, .f32⟩
  | .hbm, ⟨42, _⟩ => ⟨S4x16x2048, .f32⟩
  | .hbm, ⟨43, _⟩ => ⟨S4x16x2048x1, .f32⟩
  | .hbm, ⟨44, _⟩ => ⟨S4x16x2048x2048, .f32⟩
  | .hbm, ⟨45, _⟩ => ⟨S4x16x2048x2048, .f32⟩
  | .hbm, ⟨46, _⟩ => ⟨S4x16x2048x64, .f32⟩
  | _, _ => ⟨S4x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_cst : Ref sig .tc := ⟨.hbm, 17, rfl⟩
abbrev main_call0_v5 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_call1_v0 : Ref sig .tc := ⟨.hbm, 29, rfl⟩
abbrev main_call1_v1 : Ref sig .tc := ⟨.hbm, 30, rfl⟩
abbrev main_v13 : Ref sig .tc := ⟨.hbm, 31, rfl⟩
abbrev main_cst_3 : Ref sig .tc := ⟨.hbm, 32, rfl⟩
abbrev main_v14 : Ref sig .tc := ⟨.hbm, 33, rfl⟩
abbrev main_cst_4 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩

abbrev nD : Nat := 1
abbrev τ : Topo := Topo.v7x

variable {F : FTy → Type} [FloatOps F]

class Facts₀ : Prop where
  bcast_S_S4x16x2048x2048 : S_.BroadcastsInDim S4x16x2048x2048 (![] : Fin 0 → Fin S4x16x2048x2048.rank)
  bcast_S_S2048x2048 : S_.BroadcastsInDim S2048x2048 (![] : Fin 0 → Fin S2048x2048.rank)
  bcast_S2048x2048_S1x1x2048x2048_2_3 : S2048x2048.BroadcastsInDim S1x1x2048x2048 (![2, 3] : Fin 2 → Fin S1x1x2048x2048.rank)
  bcast_S1x1x2048x2048_S4x1x2048x2048_0_1_2_3 : S1x1x2048x2048.BroadcastsInDim S4x1x2048x2048 (![0, 1, 2, 3] : Fin 4 → Fin S4x1x2048x2048.rank)
  bcast_S4x1x1x2048_S4x1x2048x2048_0_1_2_3 : S4x1x1x2048.BroadcastsInDim S4x1x2048x2048 (![0, 1, 2, 3] : Fin 4 → Fin S4x1x2048x2048.rank)
  bcast_S_S4x1x2048x2048 : S_.BroadcastsInDim S4x1x2048x2048 (![] : Fin 0 → Fin S4x1x2048x2048.rank)
  bcast_S4x1x2048x2048_S4x16x2048x2048_0_1_2_3 : S4x1x2048x2048.BroadcastsInDim S4x16x2048x2048 (![0, 1, 2, 3] : Fin 4 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.Spec.lean ====
/-
  The specification: masked scaled-dot-product attention over the extended reals, one query row at a time.

  For a query row `q` (64 entries), keys `K` and values `V` (2048 rows of 64 entries), the padding words `pad` of the 2048
  key positions and the query's position `row`:

    score k   = (sum over d of q d * K k d) * 0.125
    masked k  = -1e9  if  [k after row] + pad k = 1,  else  score k
                ([k after row] is 1 when key position k is after the query position, else 0; pad k is the padding word
                 read as a signed integer, so a position is blanked when exactly one of "future" and "padded" holds)
    top       = the largest masked k (never below minus infinity)
    weight k  = exp (masked k - top) / sum over k' of exp (masked k' - top)
    result d  = sum over k of weight k * V k d

  The whole arrays are these rows laid out by batch `b`, head `h` and query position: the attention weights at
  `(b, h, p, k)` and the result at `(b, h, p, d)` are the row functions of query row `(b, h, p)`, of the keys and values of
  `(b, h)`, of the padding words of batch `b`, and of the position `p`.
-/
import Idealize.ShloMosaic.PureOps.Ideal.Laws
import Idealize.ShloMosaic.Lib.ValueIdx

noncomputable section

namespace Cert.Attention

open Idealize.ShloMosaic Idealize.ShloMosaic.ValueIdx

/-- 1 when the key position (the word `col`) is after the query position (the word `row`), else 0: the bit of the
    signed comparison, widened to a word and read as an integer. -/
def future (row col : BitVec 32) : EReal := ((((IntOp.cmpi .sgt col row).setWidth 32).toInt : ℝ) : EReal)

/-- The scaled score of a query row against key `k`, blanked to -1e9 where "future" plus the padding word is exactly 1. -/
def maskedRow (qrow : Fin 64 → EReal) (kmat : Fin 2048 → Fin 64 → EReal) (pad : Fin 2048 → BitVec 32) (row : BitVec 32)
    (k : Fin 2048) : EReal :=
  Scalar.select
    (Ideal.cmp .oeq (future row (BitVec.ofNat 32 k.val) + (((pad k).toInt : ℝ) : EReal)) (Ideal.ofBits .f32 0x3F800000#32))
    (Ideal.ofBits .f32 0xCE6E6B28#32)
    ((∑ d : Fin 64, qrow d * kmat k d) * Ideal.ofBits .f32 0x3E000000#32)

/-- The largest entry of a row, taken from minus infinity. -/
def rowTop (r : Fin 2048 → EReal) : EReal :=
  max (Ideal.ofBits .f32 0xFF800000#32) ((Finset.univ : Finset (Fin 2048)).fold max (Ideal.ofBits .f32 0xFF800000#32) r)

/-- The softmax of a row at entry `k`. -/
def softRow (r : Fin 2048 → EReal) (k : Fin 2048) : EReal :=
  Ideal.div (Ideal.exp (r k - rowTop r)) (∑ k' : Fin 2048, Ideal.exp (r k' - rowTop r))

/-- The attention weight of a query row on key `k`. -/
def weightRow (qrow : Fin 64 → EReal) (kmat : Fin 2048 → Fin 64 → EReal) (pad : Fin 2048 → BitVec 32) (row : BitVec 32)
    (k : Fin 2048) : EReal :=
  softRow (maskedRow qrow kmat pad row) k

/-- The attention result of a query row at feature `d`. -/
def resultRow (qrow : Fin 64 → EReal) (kmat vmat : Fin 2048 → Fin 64 → EReal) (pad : Fin 2048 → BitVec 32) (row : BitVec 32)
    (d : Fin 64) : EReal :=
  ∑ k : Fin 2048, weightRow qrow kmat pad row k * vmat k d

/-- The row functions depend on their arguments entry by entry. -/
theorem weightRow_congr {q q' : Fin 64 → EReal} {km km' : Fin 2048 → Fin 64 → EReal} {pd pd' : Fin 2048 → BitVec 32}
    {r r' : BitVec 32} (hq : ∀ d, q d = q' d) (hk : ∀ k d, km k d = km' k d) (hp : ∀ k, pd k = pd' k) (hr : r = r')
    (k : Fin 2048) : weightRow q km pd r k = weightRow q' km' pd' r' k := by
  have e1 : q = q' := funext hq
  have e2 : km = km' := funext fun k => funext (hk k)
  have e3 : pd = pd' := funext hp
  rw [e1, e2, e3, hr]

theorem resultRow_congr {q q' : Fin 64 → EReal} {km km' vm vm' : Fin 2048 → Fin 64 → EReal} {pd pd' : Fin 2048 → BitVec 32}
    {r r' : BitVec 32} (hq : ∀ d, q d = q' d) (hk : ∀ k d, km k d = km' k d) (hv : ∀ k d, vm k d = vm' k d)
    (hp : ∀ k, pd k = pd' k) (hr : r = r') (d : Fin 64) :
    resultRow q km vm pd r d = resultRow q' km' vm' pd' r' d := by
  have e1 : q = q' := funext hq
  have e2 : km = km' := funext fun k => funext (hk k)
  have e3 : vm = vm' := funext fun k => funext (hv k)
  have e4 : pd = pd' := funext hp
  rw [e1, e2, e3, e4, hr]

/-! ## The whole arrays -/

/-- Query, key and value arrays: batch, head, position, feature. -/
abbrev QIdx : Type := (⟨4, ![4, 16, 2048, 64]⟩ : Shape).Idx
/-- The padding words: batch, two unit axes, key position. -/
abbrev PIdx : Type := (⟨4, ![4, 1, 1, 2048]⟩ : Shape).Idx
/-- The attention weights: batch, head, query position, key position. -/
abbrev WIdx : Type := (⟨4, ![4, 16, 2048, 2048]⟩ : Shape).Idx

/-- The attention weights at batch `b`, head `h`, query position `p`, key position `k`. -/
def weightsAt (Q K : QIdx → EReal) (P : PIdx → BitVec 32) (b : Fin 4) (h : Fin 16) (p k : Fin 2048) : EReal :=
  weightRow (fun d => Q (ix4 b h p d)) (fun k' d => K (ix4 b h k' d)) (fun k' => P (ix4 b (0 : Fin 1) (0 : Fin 1) k'))
    (BitVec.ofNat 32 p.val) k

/-- The attention result at batch `b`, head `h`, query position `p`, feature `d`. -/
def resultAt (Q K V : QIdx → EReal) (P : PIdx → BitVec 32) (b : Fin 4) (h : Fin 16) (p : Fin 2048) (d : Fin 64) : EReal :=
  resultRow (fun d' => Q (ix4 b h p d')) (fun k' d' => K (ix4 b h k' d')) (fun k' d' => V (ix4 b h k' d'))
    (fun k' => P (ix4 b (0 : Fin 1) (0 : Fin 1) k')) (BitVec.ofNat 32 p.val) d

/-- The arrays' entries depend on the coordinates' values only. -/
theorem weightsAt_congr (Q K : QIdx → EReal) (P : PIdx → BitVec 32) {b b' : Fin 4} {h h' : Fin 16} {p p' k k' : Fin 2048}
    (hb : b.val = b'.val) (hh : h.val = h'.val) (hp : p.val = p'.val) (hk : k.val = k'.val) :
    weightsAt Q K P b h p k = weightsAt Q K P b' h' p' k' := by
  rw [Fin.ext hb, Fin.ext hh, Fin.ext hp, Fin.ext hk]

theorem resultAt_congr (Q K V : QIdx → EReal) (P : PIdx → BitVec 32) {b b' : Fin 4} {h h' : Fin 16} {p p' : Fin 2048}
    {d d' : Fin 64} (hb : b.val = b'.val) (hh : h.val = h'.val) (hp : p.val = p'.val) (hd : d.val = d'.val) :
    resultAt Q K V P b h p d = resultAt Q K V P b' h' p' d' := by
  rw [Fin.ext hb, Fin.ext hh, Fin.ext hp, Fin.ext hd]

/-- The attention weights as one array. -/
def weights (Q K : QIdx → EReal) (P : PIdx → BitVec 32) : WIdx → EReal :=
  fun j => weightsAt Q K P (j 0) (j 1) (j 2) (j 3)

/-- The attention result as one array. -/
def result (Q K V : QIdx → EReal) (P : PIdx → BitVec 32) : QIdx → EReal :=
  fun j => resultAt Q K V P (j 0) (j 1) (j 2) (j 3)

end Cert.Attention

end
-- ==== Proof.LibKeepdims.lean ====
/-
  A vector kept as a column, read at an index: the two layout steps a row reduction with a kept axis goes through.
  A length-`a` vector cast to an `a × 1` column holds entry `i` at `(i, 0)` (the row-major position is unchanged),
  and an `a × 1` column broadcast to `a × b` holds, all along row `i`, the column's entry `(i, 0)`.
  (The transposed form, a `1 × a` row broadcast down the columns, and the transpose itself are in the library.)
-/
import Idealize.ShloMosaic.Lib.Pipeline.Value
import Idealize.ShloMosaic.Lib.ValueIdx

namespace Cert.Keepdims

open Idealize.ShloMosaic Idealize.ShloMosaic.ValueIdx

variable {α : Type}

/-- A length-`a` vector cast to an `a × 1` column reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Cert.Keepdims
-- ==== Proof.LibMatmul.lean ====
/-
  A matrix product read at an entry.

  At the exact instance a matrix-unit product into a zero accumulator is, entry by entry, the textbook contraction:
  for an M x K left operand and a K x N right operand, entry (p, q) is the sum over k of lhs(p, k) * rhs(k, q)
  (`matmul_zero_plain_apply`); when the right operand is given as N x K and contracted along its second axis
  (a product with the transpose), entry (p, q) is the sum over k of lhs(p, k) * rhs(q, k) (`matmul_zero_nt_apply`).
  The dimension records are the ones with exactly those contracting and free axes and no batch axis.
-/
import Idealize.ShloMosaic.PureOps.Ideal.Laws
import Idealize.ShloMosaic.Lib.ValueIdx

noncomputable section

namespace Cert.MatmulAt

open Idealize.ShloMosaic Idealize.ShloMosaic.ValueIdx

/-- Rows times columns: contract the left operand's second axis with the right operand's first. -/
abbrev plainDims {M K N : ℕ} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- Rows times rows: contract the second axis of both operands. -/
abbrev ntDims {M K N : ℕ} (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

theorem matmul_zero_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    matmul (plainDims wf) prec lhs rhs (constant (F := Ideal) ⟨2, ![M, N]⟩ .f32 0x00000000#32) (ix2 p q)
      = ∑ k : Fin K, lhs (ix2 p k) * rhs (ix2 k q) := by
  simp only [matmul]
  rw [Ideal.matmul_constant_zero_apply, ← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((plainDims wf).lhsIdx_val_of_single rfl _ _).trans hk)
  have er : (plainDims wf).rhsIdx (ix2 p q) ((contrEquiv1 (plainDims wf) K rfl rfl).symm k) = ix2 k q :=
    funext fun a => Fin.ext (by
      match a with
      | ⟨0, _⟩ => exact ((plainDims wf).rhsIdx_val_of_single rfl _ _).trans hk
      | ⟨1, _⟩ =>
        unfold DotDims.rhsIdx
        split
        · rename_i hb; exact absurd hb List.not_mem_nil
        · split
          · rfl
          · rename_i hn; exact absurd (List.mem_singleton_self _) hn)
  rw [el, er]

theorem matmul_zero_nt_apply {M K N : ℕ} {φ₁ φ₂ : FTy}
    (wf : DotDims.WF ⟨2, ![M, K]⟩ ⟨2, ![N, K]⟩ ⟨2, ![M, N]⟩ [1] [1] [0] [0] [] [])
    (prec : Option ContractPrecision)
    (lhs : FVec Ideal ⟨2, ![M, K]⟩ φ₁) (rhs : FVec Ideal ⟨2, ![N, K]⟩ φ₂) (p : Fin M) (q : Fin N) :
    matmul (ntDims wf) prec lhs rhs (constant (F := Ideal) ⟨2, ![M, N]⟩ .f32 0x00000000#32) (ix2 p q)
      = ∑ k : Fin K, lhs (ix2 p k) * rhs (ix2 q k) := by
  simp only [matmul]
  rw [Ideal.matmul_constant_zero_apply, ← Equiv.sum_comp (contrEquiv1 (ntDims wf) K rfl rfl).symm]
  refine Finset.sum_congr rfl fun k _ => ?_
  have hk := contrEquiv1_symm_val (ntDims wf) K rfl rfl k
  have el : (ntDims wf).lhsIdx (ix2 p q) ((contrEquiv1 (ntDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((ntDims wf).lhsIdx_val_of_single rfl _ _).trans hk)
  have er : (ntDims wf).rhsIdx (ix2 p q) ((contrEquiv1 (ntDims wf) K rfl rfl).symm k) = ix2 q k :=
    funext fun a => Fin.ext (by
      match a with
      | ⟨0, _⟩ =>
        unfold DotDims.rhsIdx
        split
        · rename_i hb; exact absurd hb List.not_mem_nil
        · split
          · rfl
          · rename_i hn; exact absurd (List.mem_singleton_self _) hn
      | ⟨1, _⟩ => exact ((ntDims wf).rhsIdx_val_of_single rfl _ _).trans hk)
  rw [el, er]

end Cert.MatmulAt

end
-- ==== Proof.LibTwoUnitAxes.lean ====
/-
  Blocks with leading unit axes, read at an index.

  A grid kernel that walks a rank-4 array one matrix at a time sees each block as a `1 × 1 × a × b` array and casts it to
  the `a × b` matrix it computes on, and casts its `a × b` result back before storing it; a vector operand arrives as
  a `1 × 1 × 1 × a` block. The row-major position of an entry does not change under such a cast, so:
  the matrix at `(i, j)` is the block at `(0, 0, i, j)`; the block at `(u, v, i, j)` is the matrix at `(i, j)` whatever the
  unit coordinates; the vector at `i` is the block at `(0, 0, 0, i)`.
-/
import Idealize.ShloMosaic.Lib.Pipeline.Value
import Idealize.ShloMosaic.Lib.ValueIdx

namespace Cert.TwoUnitAxes

open Idealize.ShloMosaic Idealize.ShloMosaic.ValueIdx

variable {α : Type}

/-- A `1 × 1 × a × b` block cast to an `a × b` matrix reads, at `(i, j)`, the block at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

/-- An `a × b` matrix cast to a `1 × 1 × a × b` block reads, at `(u, v, i, j)`, the matrix at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    simp [hu, hv])

/-- A `1 × 1 × 1 × a` block cast to a length-`a` vector reads, at `i`, the block at `(0, 0, 0, i)`. -/
theorem shapeCast_111a_a_apply {a : ℕ} (x : (⟨4, ![1, 1, 1, a]⟩ : Shape).Idx → α)
    (h : (⟨4, ![1, 1, 1, a]⟩ : Shape).ShapeCasts ⟨1, ![a]⟩) (i : Fin a) :
    shapeCast ⟨1, ![a]⟩ x h (ix1 i) = x (ix4 (0 : Fin 1) (0 : Fin 1) (0 : Fin 1) i) :=
  shapeCast_apply x h _ _ (by
    rw [Shape.rowMajor_val_four, Shape.rowMajor_val_one]
    show ((0 * 1 + 0) * 1 + 0) * a + i.val = i.val
    simp)

end Cert.TwoUnitAxes
-- ==== Proof.KernelBlock.lean ====
/-
  One tile of the kernel, read entry by entry.

  At a grid point the kernel holds a 256-row tile of queries (`x0`, a 1 × 1 × 256 × 64 block), all 2048 keys and values
  of its batch and head (`x1`, `x2`, 1 × 1 × 2048 × 64 blocks) and the 2048 padding words of its batch (`x3`, a
  1 × 1 × 1 × 2048 block). Row `p` of the tile is query position `256 * (the point's third coordinate) + p`.

  Read at row `p`, the body's values are the row functions of the specification (Proof/Spec.lean) at the query row
  `x0 (0, 0, p, ·)`, the keys `x1 (0, 0, ·, ·)`, the values `x2 (0, 0, ·, ·)`, the padding words `x3 (0, 0, 0, ·)` and
  the row's position as a word:
    the masked scores are `maskedRow` (the product with the transposed keys is a sum over the 64 features; the casts
    to the matrix unit's format are the identity on extended reals; the two iotas read their coordinates);
    the row maximum is `rowTop` (a fold of max over the 2048 keys, from minus infinity);
    the stored weights are `weightRow` and the stored result is `resultRow`.
-/
import proofs.«153860_j39651138076910_2_alg».proof.Proof.Gen.KernelIdeal.Skeleton
import proofs.«153860_j39651138076910_2_alg».proof.Proof.Spec
import proofs.«153860_j39651138076910_2_alg».proof.Proof.LibKeepdims
import proofs.«153860_j39651138076910_2_alg».proof.Proof.LibMatmul
import proofs.«153860_j39651138076910_2_alg».proof.Proof.LibTwoUnitAxes
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Cert.Attention
open Idealize.ShloMosaic Idealize.ShloMosaic.ValueIdx

/-! ## The pieces that are not entrywise -/

/-- The query tile times the transposed keys, at `(p, k)`: the sum over the 64 features of query row `p` times key `k`. -/
theorem scores_at (x0 : Vec Ideal S1x1x256x64 .f32) (x1 : Vec Ideal S1x1x2048x64 .f32) (p : Fin 256) (k : Fin 2048) :
    matmul dot_S256x64_S64x2048_S256x2048_1_0_0_1_n_n none
        (truncf .bf16 (shapeCast S256x64 x0 shapeCasts_S1x1x256x64_S256x64) bitsLt_bf16_f32)
        (transpose S64x2048 [1, 0]
          (truncf .bf16 (shapeCast S2048x64 x1 shapeCasts_S1x1x2048x64_S2048x64) bitsLt_bf16_f32)
          transposes_S2048x64_p1_0_S64x2048)
        (constant (F := Ideal) S256x2048 .f32 0x00000000#32) (ix2 p k)
      = ∑ d : Fin 64, x0 (ix4 (0 : Fin 1) (0 : Fin 1) p d) * x1 (ix4 (0 : Fin 1) (0 : Fin 1) k d) := by
  refine (Cert.MatmulAt.matmul_zero_plain_apply (M := 256) (K := 64) (N := 2048)
    dot_S256x64_S64x2048_S256x2048_1_0_0_1_n_n_wf none _ _ p k).trans ?_
  refine Finset.sum_congr rfl fun d _ => ?_
  rw [truncf_apply, Cert.TwoUnitAxes.shapeCast_11ab_ab_apply, transpose_ix2_apply, truncf_apply,
    Cert.TwoUnitAxes.shapeCast_11ab_ab_apply]

/-- The padding words, converted and laid along every row of the tile, at `(p, k)`: padding word `k` as an integer. -/
theorem padding_at (x3 : Vec Ideal S1x1x1x2048 .i32) (p : Fin 256) (k : Fin 2048) :
    broadcastTo S256x2048
        (shapeCast S1x2048 (sitofp (F := Ideal) .f32 (shapeCast S2048 x3 shapeCasts_S1x1x1x2048_S2048)) shapeCasts_S2048_S1x2048)
        broadcasts_S1x2048_S256x2048 (ix2 p k)
      = (((x3 (ix4 (0 : Fin 1) (0 : Fin 1) (0 : Fin 1) k)).toInt : ℝ) : EReal) := by
  rw [broadcastTo_1b_ab_apply, shapeCast_a_1a_apply, sitofp_apply, Cert.TwoUnitAxes.shapeCast_111a_a_apply]
  rfl

/-- The row-number iota at `(p, k)` is `p`, the column-number iota is `k`. -/
theorem iota_row_at (p : Fin 256) (k : Fin 2048) :
    iota .tc S256x2048 32 [0] iota_S256x2048_d0_w32 (ix2 p k) = BitVec.ofNat 32 p.val :=
  iota_single_apply .tc S256x2048 32 0 iota_S256x2048_d0_w32 (ix2 p k)
theorem iota_col_at (p : Fin 256) (k : Fin 2048) :
    iota .tc S256x2048 32 [1] iota_S256x2048_d1_w32 (ix2 p k) = BitVec.ofNat 32 k.val :=
  iota_single_apply .tc S256x2048 32 1 iota_S256x2048_d1_w32 (ix2 p k)

/-- The point of the source over which a row reduction at row `p` runs, at key `k`, is `(p, k)`. -/
theorem lift_row (p : Fin 256) (k : Fin 2048) : reduces_S256x2048_S256.lift (ix1 p) k = ix2 p k := by
  funext a
  match a with
  | ⟨0, _⟩ => rfl
  | ⟨1, _⟩ => rfl

/-- The maximum over a row of the tile: the fold of max over the 2048 keys, from the accumulator's value. -/
theorem rowMax_at (w : FVec Ideal S256x2048 .f32) (p : Fin 256) :
    multiReduction .maximumf [1] S256 w 0xFF800000#32 reduces_S256x2048_S256 (.inl rfl) rfl (ix1 p)
      = (Finset.univ : Finset (Fin 2048)).fold max (Ideal.ofBits .f32 0xFF800000#32) (fun k => w (ix2 p k)) :=
  (Ideal.multiReduction_maximumf_single w _ reduces_S256x2048_S256 (.inl rfl) rfl (ix1 p)).trans
    (congrArg (fun f : Fin 2048 → EReal => (Finset.univ : Finset (Fin 2048)).fold max (Ideal.ofBits .f32 0xFF800000#32) f)
      (funext fun k => congrArg w (lift_row p k)))

/-- The sum over a row of the tile: the sum over the 2048 keys. -/
theorem rowSum_at (w : FVec Ideal S256x2048 .f32) (p : Fin 256) :
    multiReduction .add [1] S256 w 0x00000000#32 reduces_S256x2048_S256 (.inl rfl) rfl (ix1 p)
      = ∑ k : Fin 2048, w (ix2 p k) :=
  (Ideal.multiReduction_add_single w _ reduces_S256x2048_S256 (.inl rfl) rfl (ix1 p)).trans
    (Finset.sum_congr rfl fun k _ => congrArg w (lift_row p k))

/-- A per-row value kept as a column and laid along its row reads, at `(p, k)`, the value of row `p`. -/
theorem column_at (v : FVec Ideal S256 .f32) (p : Fin 256) (k : Fin 2048) :
    broadcastTo S256x2048 (shapeCast S256x1 v shapeCasts_S256_S256x1) broadcasts_S256x1_S256x2048 (ix2 p k) = v (ix1 p) := by
  rw [Cert.Keepdims.broadcastTo_a1_ab_apply, Cert.Keepdims.shapeCast_a_a1_apply]

/-- The exponential of a vector, the integer comparison and the integer sum, read at an index. -/
theorem exp_at {s : Shape} (v : FVec Ideal s .f32) (j : s.Idx) : exp v j = Ideal.exp (v j) := rfl
theorem cmpi_at {s : Shape} {w : ℕ} (c : CmpIPredicate) (x y : IVec s w) (j : s.Idx) : cmpi c x y j = IntOp.cmpi c (x j) (y j) := rfl
theorem addi_at {s : Shape} {w : ℕ} (x y : IVec s w) (j : s.Idx) : addi x y j = IntOp.addi (x j) (y j) := rfl

/-! ## The tile's rows as the specification's arguments -/

/-- Query row `p` of the tile. -/
abbrev qrow (x0 : Vec Ideal S1x1x256x64 .f32) (p : Fin 256) : Fin 64 → EReal :=
  fun d => x0 (ix4 (0 : Fin 1) (0 : Fin 1) p d)
/-- The keys, or the values, as 2048 rows of 64 features. -/
abbrev rows (x : Vec Ideal S1x1x2048x64 .f32) : Fin 2048 → Fin 64 → EReal :=
  fun k d => x (ix4 (0 : Fin 1) (0 : Fin 1) k d)
/-- The padding words of the 2048 key positions. -/
abbrev pads (x3 : Vec Ideal S1x1x1x2048 .i32) : Fin 2048 → BitVec 32 :=
  fun k => x3 (ix4 (0 : Fin 1) (0 : Fin 1) (0 : Fin 1) k)
/-- The query position of row `p` of the tile at a grid point, as the kernel computes it: 256 times the point's third
    coordinate, plus `p`, on 32-bit words. -/
abbrev rowWord (i : grid0.Coords) (p : Fin 256) : BitVec 32 :=
  BitVec.ofNat 32 (i 2).val * 256#32 + BitVec.ofNat 32 p.val

/-! ## The body's values -/

/-- The masked scores at `(p, k)`. -/
theorem masked_at (i : grid0.Coords) (x0 : Vec Ideal S1x1x256x64 .f32) (x1 : Vec Ideal S1x1x2048x64 .f32)
    (x3 : Vec Ideal S1x1x1x2048 .i32) (p : Fin 256) (k : Fin 2048) :
    k0_pay5 (F := Ideal) i x0 x1 x3 (ix2 p k) = maskedRow (qrow x0 p) (rows x1) (pads x3) (rowWord i p) k := by
  unfold k0_pay5
  simp only [select_apply, cmpf_apply, addf_apply, mulf_apply, sitofp_apply, extui_apply, broadcast_apply, cmpi_at, addi_at,
    padding_at]
  rw [scores_at, iota_col_at, iota_row_at]
  rfl

/-- The row maximum at row `p`: the largest masked score of the row, never below minus infinity. -/
theorem top_at (i : grid0.Coords) (x0 : Vec Ideal S1x1x256x64 .f32) (x1 : Vec Ideal S1x1x2048x64 .f32)
    (x3 : Vec Ideal S1x1x1x2048 .i32) (p : Fin 256) :
    k0_pay6 (F := Ideal) i x0 x1 x3 (ix1 p) = rowTop (fun k => k0_pay5 (F := Ideal) i x0 x1 x3 (ix2 p k)) := by
  unfold k0_pay6
  simp only [maximumf_apply, broadcast_apply]
  rw [rowMax_at]
  rfl

/-- The softmax of a tile of scores given its row maxima, at `(p, k)`. -/
theorem soft_at (v30 : FVec Ideal S256x2048 .f32) (v33 : FVec Ideal S256 .f32) (p : Fin 256) (k : Fin 2048) :
    k0_pay1 (F := Ideal) v30 v33 (ix2 p k)
      = Ideal.div (Ideal.exp (v30 (ix2 p k) - v33 (ix1 p))) (∑ k' : Fin 2048, Ideal.exp (v30 (ix2 p k') - v33 (ix1 p))) := by
  unfold k0_pay1
  simp only [divf_apply, exp_at, subf_apply, column_at]
  rw [rowSum_at]
  simp only [exp_at, subf_apply, column_at]

/-- The attention weights of the tile at `(p, k)`. -/
theorem weights_core (i : grid0.Coords) (x0 : Vec Ideal S1x1x256x64 .f32) (x1 : Vec Ideal S1x1x2048x64 .f32)
    (x3 : Vec Ideal S1x1x1x2048 .i32) (p : Fin 256) (k : Fin 2048) :
    k0_pay1 (F := Ideal) (k0_pay5 i x0 x1 x3) (k0_pay6 i x0 x1 x3) (ix2 p k)
      = weightRow (qrow x0 p) (rows x1) (pads x3) (rowWord i p) k := by
  simp only [soft_at, top_at, masked_at]
  rfl

/-- What the body stores as attention weights, at `(u, v, p, k)`. -/
theorem weights_tile_at (i : grid0.Coords) (x0 : Vec Ideal S1x1x256x64 .f32) (x1 : Vec Ideal S1x1x2048x64 .f32)
    (x3 : Vec Ideal S1x1x1x2048 .i32) (u v : Fin 1) (p : Fin 256) (k : Fin 2048) :
    k0_pay2 (F := Ideal) (k0_pay5 i x0 x1 x3) (k0_pay6 i x0 x1 x3) (ix4 u v p k)
      = weightRow (qrow x0 p) (rows x1) (pads x3) (rowWord i p) k := by
  unfold k0_pay2
  simp only [Cert.TwoUnitAxes.shapeCast_ab_11ab_apply]
  exact weights_core i x0 x1 x3 p k

/-- The values as the matrix unit receives them, at `(k, d)`. -/
theorem values_at (x2 : Vec Ideal S1x1x2048x64 .f32) (k : Fin 2048) (d : Fin 64) :
    k0_pay4 (F := Ideal) x2 (ix2 k d) = x2 (ix4 (0 : Fin 1) (0 : Fin 1) k d) := by
  unfold k0_pay4
  simp only [truncf_apply, Cert.TwoUnitAxes.shapeCast_11ab_ab_apply]

/-- What the body stores as the result, at `(u, v, p, d)`. -/
theorem result_tile_at (i : grid0.Coords) (x0 : Vec Ideal S1x1x256x64 .f32) (x1 x2 : Vec Ideal S1x1x2048x64 .f32)
    (x3 : Vec Ideal S1x1x1x2048 .i32) (u v : Fin 1) (p : Fin 256) (d : Fin 64) :
    k0_pay3 (F := Ideal) (k0_pay4 x2) (k0_pay5 i x0 x1 x3) (k0_pay6 i x0 x1 x3) (ix4 u v p d)
      = resultRow (qrow x0 p) (rows x1) (rows x2) (pads x3) (rowWord i p) d := by
  unfold k0_pay3
  simp only [Cert.TwoUnitAxes.shapeCast_ab_11ab_apply]
  refine (Cert.MatmulAt.matmul_zero_plain_apply (M := 256) (K := 2048) (N := 64)
    dot_S256x2048_S2048x64_S256x64_1_0_0_1_n_n_wf none _ _ p d).trans ?_
  refine Finset.sum_congr rfl fun k _ => ?_
  rw [truncf_apply, values_at, weights_core]

end Cert.KernelIdeal.Block

end
-- ==== Proof.KernelPoints.lean ====
/-
  The grid's points and what each is handed.

  The grid has 4 × 16 × 8 points (batch, head, query tile). The relations between the six windows' printed index maps
  are decided once over the 512 points (`idx_facts`): relative to the attention weights' window, whose block indices at
  a point are `(b, h, j, 0)`, the queries' and the result's windows move with it, the keys' and values' follow `(b, h)`,
  the padding words' follow `b`, and `j` is the point's third coordinate. Every `(b, h, j)` is some point's
  (`idx_onto`). Read through its window, each input block at a point is then a part of its argument array:
  query rows `256 j … 256 j + 255` of `(b, h)`, all keys and values of `(b, h)`, the padding words of batch `b`; and the
  position word the kernel computes for row `p` of the tile is the word of `256 j + p`.
-/
import proofs.«153860_j39651138076910_2_alg».proof.Proof.FrameKernelIdeal
import proofs.«153860_j39651138076910_2_alg».proof.Proof.KernelBlock
import Idealize.ShloMosaic.Lib.Pipeline.Value

noncomputable section

namespace Cert.KernelIdeal.Points

open Cert.KernelIdeal Cert.KernelIdeal.Gen Cert.KernelIdeal.GenP Cert.KernelIdeal.Block Cert.Attention
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz4 : (![0, 0, 0, 0] : Fin 4 → Nat) = fun _ => 0 := funext fun a => by fin_cases a <;> rfl

/-! ## The index maps, decided over the grid -/

/-- Relative to the weights' window (block indices `(b, h, j, 0)`): the queries' and the result's windows move with it; the
    keys' and values' follow its batch and head; the padding words' its batch; and `j` is the point's third coordinate. -/
theorem idx_facts : ∀ t : Fin cfg0.N,
    win0_0.index t (0 : Fin 4) = win0_5.index t (0 : Fin 4) ∧ win0_0.index t (1 : Fin 4) = win0_5.index t (1 : Fin 4)
    ∧ win0_0.index t (2 : Fin 4) = win0_5.index t (2 : Fin 4) ∧ win0_0.index t (3 : Fin 4) = 0
    ∧ win0_1.index t (0 : Fin 4) = win0_5.index t (0 : Fin 4) ∧ win0_1.index t (1 : Fin 4) = win0_5.index t (1 : Fin 4)
    ∧ win0_1.index t (2 : Fin 4) = 0 ∧ win0_1.index t (3 : Fin 4) = 0
    ∧ win0_2.index t (0 : Fin 4) = win0_5.index t (0 : Fin 4) ∧ win0_2.index t (1 : Fin 4) = win0_5.index t (1 : Fin 4)
    ∧ win0_2.index t (2 : Fin 4) = 0 ∧ win0_2.index t (3 : Fin 4) = 0
    ∧ win0_3.index t (0 : Fin 4) = win0_5.index t (0 : Fin 4) ∧ win0_3.index t (1 : Fin 4) = 0
    ∧ win0_3.index t (2 : Fin 4) = 0 ∧ win0_3.index t (3 : Fin 4) = 0
    ∧ win0_4.index t (0 : Fin 4) = win0_5.index t (0 : Fin 4) ∧ win0_4.index t (1 : Fin 4) = win0_5.index t (1 : Fin 4)
    ∧ win0_4.index t (2 : Fin 4) = win0_5.index t (2 : Fin 4) ∧ win0_4.index t (3 : Fin 4) = 0
    ∧ win0_5.index t (3 : Fin 4) = 0
    ∧ win0_5.index t (0 : Fin 4) < 4 ∧ win0_5.index t (1 : Fin 4) < 16 ∧ win0_5.index t (2 : Fin 4) < 8
    ∧ (grid0.coords t (2 : Fin 3)).val = win0_5.index t (2 : Fin 4) :=
  (by decide +kernel : ∀ t : Fin grid0.N, _)

/-- The point numbered `128 b + 8 h + j` has block indices `(b, h, j, 0)` in the weights' window (decided over the 512 triples). -/
theorem idx_point : ∀ (q0 : Fin 4) (q1 : Fin 16) (q2 : Fin 8),
    win0_5.index (⟨q0.val * 128 + q1.val * 8 + q2.val, by
      have h0 := q0.isLt; have h1 := q1.isLt; have h2 := q2.isLt
      show q0.val * 128 + q1.val * 8 + q2.val < grid0.N
      rw [N_0]; omega⟩ : Fin grid0.N) = ![q0.val, q1.val, q2.val, 0] := by
  decide +kernel

/-- So every `(b, h, j)` is some point's. -/
theorem idx_onto (q0 : Fin 4) (q1 : Fin 16) (q2 : Fin 8) :
    ∃ t : Fin cfg0.N, win0_5.index t = ![q0.val, q1.val, q2.val, 0] :=
  ⟨_, idx_point q0 q1 q2⟩

/-! ## A point's batch, head and query positions -/

/-- The batch of point `t`. -/
def ptB (t : Fin cfg0.N) : Fin 4 := ⟨win0_5.index t (0 : Fin 4), (idx_facts t).2.2.2.2.2.2.2.2.2.2.2.2.2.2.2.2.2.2.2.2.2.1⟩
/-- The head of point `t`. -/
def ptH (t : Fin cfg0.N) : Fin 16 := ⟨win0_5.index t (1 : Fin 4), (idx_facts t).2.2.2.2.2.2.2.2.2.2.2.2.2.2.2.2.2.2.2.2.2.2.1⟩
/-- The query position of row `p` of point `t`'s tile. -/
def ptQ (t : Fin cfg0.N) (p : Fin 256) : Fin 2048 :=
  ⟨win0_5.index t (2 : Fin 4) * 256 + p.val, by
    have h := (idx_facts t).2.2.2.2.2.2.2.2.2.2.2.2.2.2.2.2.2.2.2.2.2.2.2.1
    have := p.isLt
    omega⟩

/-! ## The windows' blocks at a point, read off the arrays -/

/-- Row `p` of the query tile is query row `ptQ t p` of `(ptB t, ptH t)`. -/
theorem query_at (c : Dev nD) (t : Fin cfg0.N) (p : Fin 256) (d : Fin 64) :
    iblk m c 0 t (ix4 (0 : Fin 1) (0 : Fin 1) p d) = V m c main_arg0 (ix4 (ptB t) (ptH t) (ptQ t p) d) := by
  obtain ⟨a0, a1, a2, a3, -⟩ := idx_facts t
  show V m c main_arg0 (((cfg0.win 0).blk t).view.emb (ix4 (0 : Fin 1) (0 : Fin 1) p d)) = _
  refine congrArg (V m c main_arg0) (funext fun a => Fin.ext ?_)
  match a with
  | ⟨0, _⟩ => show win0_0.index t (0 : Fin 4) * 1 + 1 * 0 = win0_5.index t (0 : Fin 4); omega
  | ⟨1, _⟩ => show win0_0.index t (1 : Fin 4) * 1 + 1 * 0 = win0_5.index t (1 : Fin 4); omega
  | ⟨2, _⟩ => show win0_0.index t (2 : Fin 4) * 256 + 1 * p.val = win0_5.index t (2 : Fin 4) * 256 + p.val; omega
  | ⟨3, _⟩ => show win0_0.index t (3 : Fin 4) * 64 + 1 * d.val = d.val; omega

/-- Row `k` of the key block is key row `k` of `(ptB t, ptH t)`. -/
theorem key_at (c : Dev nD) (t : Fin cfg0.N) (k : Fin 2048) (d : Fin 64) :
    iblk m c 1 t (ix4 (0 : Fin 1) (0 : Fin 1) k d) = V m c main_arg1 (ix4 (ptB t) (ptH t) k d) := by
  obtain ⟨-, -, -, -, a0, a1, a2, a3, -⟩ := idx_facts t
  show V m c main_arg1 (((cfg0.win 1).blk t).view.emb (ix4 (0 : Fin 1) (0 : Fin 1) k d)) = _
  refine congrArg (V m c main_arg1) (funext fun a => Fin.ext ?_)
  match a with
  | ⟨0, _⟩ => show win0_1.index t (0 : Fin 4) * 1 + 1 * 0 = win0_5.index t (0 : Fin 4); omega
  | ⟨1, _⟩ => show win0_1.index t (1 : Fin 4) * 1 + 1 * 0 = win0_5.index t (1 : Fin 4); omega
  | ⟨2, _⟩ => show win0_1.index t (2 : Fin 4) * 2048 + 1 * k.val = k.val; omega
  | ⟨3, _⟩ => show win0_1.index t (3 : Fin 4) * 64 + 1 * d.val = d.val; omega

/-- Row `k` of the value block is value row `k` of `(ptB t, ptH t)`. -/
theorem value_at (c : Dev nD) (t : Fin cfg0.N) (k : Fin 2048) (d : Fin 64) :
    iblk m c 2 t (ix4 (0 : Fin 1) (0 : Fin 1) k d) = V m c main_arg2 (ix4 (ptB t) (ptH t) k d) := by
  obtain ⟨-, -, -, -, -, -, -, -, a0, a1, a2, a3, -⟩ := idx_facts t
  show V m c main_arg2 (((cfg0.win 2).blk t).view.emb (ix4 (0 : Fin 1) (0 : Fin 1) k d)) = _
  refine congrArg (V m c main_arg2) (funext fun a => Fin.ext ?_)
  match a with
  | ⟨0, _⟩ => show win0_2.index t (0 : Fin 4) * 1 + 1 * 0 = win0_5.index t (0 : Fin 4); omega
  | ⟨1, _⟩ => show win0_2.index t (1 : Fin 4) * 1 + 1 * 0 = win0_5.index t (1 : Fin 4); omega
  | ⟨2, _⟩ => show win0_2.index t (2 : Fin 4) * 2048 + 1 * k.val = k.val; omega
  | ⟨3, _⟩ => show win0_2.index t (3 : Fin 4) * 64 + 1 * d.val = d.val; omega

/-- Entry `k` of the padding block is the padding word of key `k` of batch `ptB t`. -/
theorem pad_at (c : Dev nD) (t : Fin cfg0.N) (k : Fin 2048) :
    iblk m c 3 t (ix4 (0 : Fin 1) (0 : Fin 1) (0 : Fin 1) k) = V m c main_arg3 (ix4 (ptB t) (0 : Fin 1) (0 : Fin 1) k) := by
  obtain ⟨-, -, -, -, -, -, -, -, -, -, -, -, a0, a1, a2, a3, -⟩ := idx_facts t
  show V m c main_arg3 (((cfg0.win 3).blk t).view.emb (ix4 (0 : Fin 1) (0 : Fin 1) (0 : Fin 1) k)) = _
  refine congrArg (V m c main_arg3) (funext fun a => Fin.ext ?_)
  match a with
  | ⟨0, _⟩ => show win0_3.index t (0 : Fin 4) * 1 + 1 * 0 = win0_5.index t (0 : Fin 4); omega
  | ⟨1, _⟩ => show win0_3.index t (1 : Fin 4) * 1 + 1 * 0 = 0; omega
  | ⟨2, _⟩ => show win0_3.index t (2 : Fin 4) * 1 + 1 * 0 = 0; omega
  | ⟨3, _⟩ => show win0_3.index t (3 : Fin 4) * 2048 + 1 * k.val = k.val; omega

/-- The position word the kernel computes for row `p` at point `t` is the word of `ptQ t p`: the sum and product of
    32-bit words of two numbers are the word of the numbers' sum and product. -/
theorem rowWord_at (t : Fin cfg0.N) (p : Fin 256) : rowWord (grid0.coords t) p = BitVec.ofNat 32 (ptQ t p).val := by
  have hj := (idx_facts t).2.2.2.2.2.2.2.2.2.2.2.2.2.2.2.2.2.2.2.2.2.2.2.2
  show BitVec.ofNat 32 (grid0.coords t (2 : Fin 3)).val * 256#32 + BitVec.ofNat 32 p.val
      = BitVec.ofNat 32 (win0_5.index t (2 : Fin 4) * 256 + p.val)
  rw [hj, BitVec.ofNat_add, BitVec.ofNat_mul]

end Cert.KernelIdeal.Points

end
-- ==== Proof.KernelValue.lean ====
/-
  From tiles to the arrays: what the idealized kernel leaves in its two outputs.

  At the point whose block indices are `(b, h, j)` the kernel writes back rows `256 j … 256 j + 255` of the result and of
  the attention weights of `(b, h)`. With Proof/KernelBlock.lean's reading of a tile and Proof/KernelPoints.lean's reading
  of the input blocks, what a point writes back is its block of the specification's arrays (`flushedW_eq`,
  `flushedR_eq`); the blocks cover both arrays (`coverW`, `coverR`: query row `q` is in tile `q / 256`), so after the
  run the arrays ARE the specification's (`finalW`, `finalR`), and the kernel's run is re-posted at them (`run`).
-/
import proofs.«153860_j39651138076910_2_alg».proof.Proof.KernelPoints
import Idealize.ShloMosaic.Lib.Pipeline.Value

noncomputable section

namespace Cert.KernelIdeal.ArrayValue

open Cert.KernelIdeal Cert.KernelIdeal.Gen Cert.KernelIdeal.GenP Cert.KernelIdeal.Block Cert.KernelIdeal.Points Cert.Attention
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## What a point writes back -/

/-- Point `t` writes back its block of the specification's attention weights. -/
theorem flushedW_eq (c : Dev nD) (t : Fin cfg0.N) :
    (dats m 0 c).flushed 5 t
      = ((cfg0.win 5).blk t).view.read (Elt Ideal) (weights (V m c main_arg0) (V m c main_arg1) (V m c main_arg3)) := by
  show (cfg0.win 5).cut (grid0.coords t) ((dats m 0 c).after 5 t) = _
  rw [after0_5]
  unfold out0_5
  rw [View.canon_unit_zero hz4]
  simp only [View.ld_unit_zero (S := S1x1x256x64) hz4, View.ld_unit_zero (S := S1x1x2048x64) hz4,
    View.ld_unit_zero (S := S1x1x1x2048) hz4]
  obtain ⟨-, -, -, -, -, -, -, -, -, -, -, -, -, -, -, -, -, -, -, -, e3, -⟩ := idx_facts t
  refine funext fun (y : S1x1x256x2048.Idx) => ?_
  obtain ⟨u, v, p, k, rfl⟩ : ∃ (u v : Fin 1) (p : Fin 256) (k : Fin 2048), y = ix4 u v p k :=
    ⟨y 0, y 1, y 2, y 3, eq_ix4 y⟩
  refine (weights_tile_at (grid0.coords t) (iblk m c 0 t) (iblk m c 1 t) (iblk m c 3 t) u v p k).trans ?_
  refine (weightRow_congr (fun d => query_at m c t p d) (fun k' d => key_at m c t k' d) (fun k' => pad_at m c t k')
    (rowWord_at t p) k).trans ?_
  show weightsAt (V m c main_arg0) (V m c main_arg1) (V m c main_arg3) (ptB t) (ptH t) (ptQ t p) k
    = weightsAt (V m c main_arg0) (V m c main_arg1) (V m c main_arg3)
        (((cfg0.win 5).blk t).view.emb (ix4 u v p k) 0) (((cfg0.win 5).blk t).view.emb (ix4 u v p k) 1)
        (((cfg0.win 5).blk t).view.emb (ix4 u v p k) 2) (((cfg0.win 5).blk t).view.emb (ix4 u v p k) 3)
  have hu : u.val = 0 := by omega
  have hv : v.val = 0 := by omega
  refine weightsAt_congr _ _ _ ?_ ?_ ?_ ?_
  · show win0_5.index t (0 : Fin 4) = win0_5.index t (0 : Fin 4) * 1 + 1 * u.val; omega
  · show win0_5.index t (1 : Fin 4) = win0_5.index t (1 : Fin 4) * 1 + 1 * v.val; omega
  · show win0_5.index t (2 : Fin 4) * 256 + p.val = win0_5.index t (2 : Fin 4) * 256 + 1 * p.val; omega
  · show k.val = win0_5.index t (3 : Fin 4) * 2048 + 1 * k.val; omega

/-- Point `t` writes back its block of the specification's result. -/
theorem flushedR_eq (c : Dev nD) (t : Fin cfg0.N) :
    (dats m 0 c).flushed 4 t
      = ((cfg0.win 4).blk t).view.read (Elt Ideal)
          (result (V m c main_arg0) (V m c main_arg1) (V m c main_arg2) (V m c main_arg3)) := by
  show (cfg0.win 4).cut (grid0.coords t) ((dats m 0 c).after 4 t) = _
  rw [after0_4]
  unfold out0_4
  rw [View.canon_unit_zero hz4]
  simp only [View.ld_unit_zero (S := S1x1x256x64) hz4, View.ld_unit_zero (S := S1x1x2048x64) hz4,
    View.ld_unit_zero (S := S1x1x1x2048) hz4]
  obtain ⟨-, -, -, -, -, -, -, -, -, -, -, -, -, -, -, -, f0, f1, f2, f3, -⟩ := idx_facts t
  refine funext fun (y : S1x1x256x64.Idx) => ?_
  obtain ⟨u, v, p, d, rfl⟩ : ∃ (u v : Fin 1) (p : Fin 256) (d : Fin 64), y = ix4 u v p d :=
    ⟨y 0, y 1, y 2, y 3, eq_ix4 y⟩
  refine (result_tile_at (grid0.coords t) (iblk m c 0 t) (iblk m c 1 t) (iblk m c 2 t) (iblk m c 3 t) u v p d).trans ?_
  refine (resultRow_congr (fun d' => query_at m c t p d') (fun k' d' => key_at m c t k' d') (fun k' d' => value_at m c t k' d')
    (fun k' => pad_at m c t k') (rowWord_at t p) d).trans ?_
  show resultAt (V m c main_arg0) (V m c main_arg1) (V m c main_arg2) (V m c main_arg3) (ptB t) (ptH t) (ptQ t p) d
    = resultAt (V m c main_arg0) (V m c main_arg1) (V m c main_arg2) (V m c main_arg3)
        (((cfg0.win 4).blk t).view.emb (ix4 u v p d) 0) (((cfg0.win 4).blk t).view.emb (ix4 u v p d) 1)
        (((cfg0.win 4).blk t).view.emb (ix4 u v p d) 2) (((cfg0.win 4).blk t).view.emb (ix4 u v p d) 3)
  have hu : u.val = 0 := by omega
  have hv : v.val = 0 := by omega
  refine resultAt_congr _ _ _ _ ?_ ?_ ?_ ?_
  · show win0_5.index t (0 : Fin 4) = win0_4.index t (0 : Fin 4) * 1 + 1 * u.val; omega
  · show win0_5.index t (1 : Fin 4) = win0_4.index t (1 : Fin 4) * 1 + 1 * v.val; omega
  · show win0_5.index t (2 : Fin 4) * 256 + p.val = win0_4.index t (2 : Fin 4) * 256 + 1 * p.val; omega
  · show d.val = win0_4.index t (3 : Fin 4) * 64 + 1 * d.val; omega

/-! ## The blocks cover the arrays -/

/-- An index of the weights is in point `t`'s block iff each coordinate is in the block's range on its axis. -/
theorem mem_blkW (t : Fin cfg0.N) (i : S4x16x2048x2048.Idx) :
    i ∈ ((cfg0.win 5).blk t).view.set ↔ ∀ a : Fin 4, win0_5.index t a * S1x1x256x2048.size a ≤ (i a).val
      ∧ (i a).val < win0_5.index t a * S1x1x256x2048.size a + S1x1x256x2048.size a := by
  show i ∈ ((View.whole main_v0_1).slice (win0_5.rect t)).set ↔ _
  rw [View.set_slice_whole, Rect.mem_set_unit]
  exact Iff.rfl

/-- An index of the result is in point `t`'s block iff each coordinate is in the block's range on its axis. -/
theorem mem_blkR (t : Fin cfg0.N) (i : S4x16x2048x64.Idx) :
    i ∈ ((cfg0.win 4).blk t).view.set ↔ ∀ a : Fin 4, win0_4.index t a * S1x1x256x64.size a ≤ (i a).val
      ∧ (i a).val < win0_4.index t a * S1x1x256x64.size a + S1x1x256x64.size a := by
  show i ∈ ((View.whole main_v0_0).slice (win0_4.rect t)).set ↔ _
  rw [View.set_slice_whole, Rect.mem_set_unit]
  exact Iff.rfl

/-- Every entry of the weights is in some point's block: query row `q` is in tile `q / 256`. -/
theorem coverW (i : S4x16x2048x2048.Idx) :
    ∃ t : Fin cfg0.N, (cfg0.win 5).flush t = true ∧ i ∈ ((cfg0.win 5).blk t).view.set := by
  have h0 : (i 0).val < 4 := (i 0).isLt
  have h1 : (i 1).val < 16 := (i 1).isLt
  have h2 : (i 2).val < 2048 := (i 2).isLt
  have h3 : (i 3).val < 2048 := (i 3).isLt
  obtain ⟨t, ht⟩ := idx_onto ⟨(i 0).val, h0⟩ ⟨(i 1).val, h1⟩ ⟨(i 2).val / 256, by omega⟩
  have q0 : win0_5.index t (0 : Fin 4) = (i 0).val := congrFun ht 0
  have q1 : win0_5.index t (1 : Fin 4) = (i 1).val := congrFun ht 1
  have q2 : win0_5.index t (2 : Fin 4) = (i 2).val / 256 := congrFun ht 2
  have q3 : win0_5.index t (3 : Fin 4) = 0 := congrFun ht 3
  refine ⟨t, flush0_5 t, ?_⟩
  rw [mem_blkW]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 256 ≤ (i 2).val ∧ (i 2).val < win0_5.index t (2 : Fin 4) * 256 + 256; omega
  | ⟨3, _⟩ => show win0_5.index t (3 : Fin 4) * 2048 ≤ (i 3).val ∧ (i 3).val < win0_5.index t (3 : Fin 4) * 2048 + 2048; omega

/-- Every entry of the result is in some point's block. -/
theorem coverR (i : S4x16x2048x64.Idx) :
    ∃ t : Fin cfg0.N, (cfg0.win 4).flush t = true ∧ i ∈ ((cfg0.win 4).blk t).view.set := by
  have h0 : (i 0).val < 4 := (i 0).isLt
  have h1 : (i 1).val < 16 := (i 1).isLt
  have h2 : (i 2).val < 2048 := (i 2).isLt
  have h3 : (i 3).val < 64 := (i 3).isLt
  obtain ⟨t, ht⟩ := idx_onto ⟨(i 0).val, h0⟩ ⟨(i 1).val, h1⟩ ⟨(i 2).val / 256, by omega⟩
  obtain ⟨-, -, -, -, -, -, -, -, -, -, -, -, -, -, -, -, f0, f1, f2, f3, -⟩ := idx_facts t
  have q0 : win0_5.index t (0 : Fin 4) = (i 0).val := congrFun ht 0
  have q1 : win0_5.index t (1 : Fin 4) = (i 1).val := congrFun ht 1
  have q2 : win0_5.index t (2 : Fin 4) = (i 2).val / 256 := congrFun ht 2
  refine ⟨t, flush0_4 t, ?_⟩
  rw [mem_blkR]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 256 ≤ (i 2).val ∧ (i 2).val < win0_4.index t (2 : Fin 4) * 256 + 256; omega
  | ⟨3, _⟩ => show win0_4.index t (3 : Fin 4) * 64 ≤ (i 3).val ∧ (i 3).val < win0_4.index t (3 : Fin 4) * 64 + 64; omega

/-! ## The arrays after the run, and the run -/

/-- After the run the weights' array is the specification's. -/
theorem finalW (c : Dev nD) :
    (dats m 0 c).arrAt 5 cfg0.N = weights (V m c main_arg0) (V m c main_arg1) (V m c main_arg3) :=
  (dats m 0 c).arrAt_eq_of_cover 5 _ (fun t _ => flushedW_eq m c t) coverW

/-- After the run the result's array is the specification's. -/
theorem finalR (c : Dev nD) :
    (dats m 0 c).arrAt 4 cfg0.N = result (V m c main_arg0) (V m c main_arg1) (V m c main_arg2) (V m c main_arg3) :=
  (dats m 0 c).arrAt_eq_of_cover 4 _ (fun t _ => flushedR_eq m c t) coverR

/-- Every weakly fair execution of the idealized kernel terminates with the result and the attention weights at the
    specification's arrays of the arguments, the arguments unchanged. -/
theorem run : θ_run defs (onTc (τ := τ) (main (F := Ideal))) ⟨m, fun _ => 0, ρ⟩ fun r => ∀ c : Dev nD,
      r.2.mem ((c : Thread nD τ).loc main_v0_0)
        = result (m ((c : Thread nD τ).loc main_arg0)) (m ((c : Thread nD τ).loc main_arg1)) (m ((c : Thread nD τ).loc main_arg2))
            (m ((c : Thread nD τ).loc main_arg3))
      ∧ r.2.mem ((c : Thread nD τ).loc main_v0_1)
        = weights (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 4).trans (finalR m c), ((h c).1 5).trans (finalW m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.ArrayValue

end
-- ==== Proof.Consts.lean ====
/-
  The float literals of the two programs as extended reals, and the two laws that join them.

  Both programs scale the scores by the inverse square root of the head width 64. The kernel multiplies by the
  literal 0.125; the reference divides by the square root of the literal 64. The square root of 64 is exactly 8, and
  dividing an extended real by the real 8 is multiplying it by 1/8 (at the infinities too), so the two agree on every
  extended real (`scale_law`).

  Both programs mark the key positions after the query position. The kernel converts the bit of the signed comparison
  "column > row" to a float; the reference selects 0 where "row >= column" and 1 elsewhere. On any two 32-bit words
  exactly one of the comparisons holds, so both are the 0/1 indicator of "column > row" (`future_law`).
-/
import Idealize.ShloMosaic.PureOps.Ideal.Laws
import Idealize.ShloMosaic.Lib.ValueIdx

noncomputable section

namespace Cert.Attention

open Idealize.ShloMosaic Idealize.ShloMosaic.ValueIdx

/-- The pattern of 1.0 is the real 1. -/
theorem ofBits_one : Ideal.ofBits .f32 0x3F800000#32 = 1 := by
  have h : Ideal.ofBits .f32 0x3F800000#32 = ((1 : ℝ) : EReal) := by
    simp [Ideal.ofBits, Ideal.ieee, -EReal.coe_mul]; norm_num
  rw [h]; exact EReal.coe_one

/-- The pattern of 64.0 is the real 64. -/
theorem ofBits_sixtyfour : Ideal.ofBits .f32 0x42800000#32 = ((64 : ℝ) : EReal) := by
  simp [Ideal.ofBits, Ideal.ieee, -EReal.coe_mul]; norm_num

/-- The pattern of 0.125 is the real 1/8. -/
theorem ofBits_eighth : Ideal.ofBits .f32 0x3E000000#32 = ((1 / 8 : ℝ) : EReal) := by
  simp [Ideal.ofBits, Ideal.ieee, -EReal.coe_mul]; norm_num

/-- The square root of 64 is 8. -/
theorem sqrt_sixtyfour : Ideal.sqrt ((64 : ℝ) : EReal) = ((8 : ℝ) : EReal) := by
  show (if (64 : ℝ) < 0 then (⊥ : EReal) else ((Real.sqrt 64 : ℝ) : EReal)) = _
  rw [if_neg (by norm_num)]
  congr 1
  rw [show (64 : ℝ) = 8 ^ 2 by norm_num]
  exact Real.sqrt_sq (by norm_num)

/-- Dividing by the square root of the literal 64 is multiplying by the literal 0.125, on every extended real. -/
theorem scale_law (x : EReal) :
    Ideal.div x (Ideal.sqrt (Ideal.ofBits .f32 0x42800000#32)) = x * Ideal.ofBits .f32 0x3E000000#32 := by
  rw [ofBits_sixtyfour, sqrt_sixtyfour, ofBits_eighth, Ideal.div_coe (by norm_num)]

/-- "Select 0 where row >= column, else 1" is the converted bit of "column > row", for any two words. -/
theorem future_law (r c : BitVec 32) :
    Scalar.select (IntOp.cmpi .sge (IntOp.addi r 0#32) c) (Ideal.ofBits .f32 0x00000000#32) (Ideal.ofBits .f32 0x3F800000#32)
      = ((((IntOp.cmpi .sgt c r).setWidth 32).toInt : ℝ) : EReal) := by
  have hr : IntOp.addi r 0#32 = r := by show r + 0#32 = r; simp
  rw [hr]
  show Scalar.select (BitVec.ofBool (c.sle r)) _ _ = ((((BitVec.ofBool (r.slt c)).setWidth 32).toInt : ℝ) : EReal)
  have hsle : c.sle r = !(r.slt c) := by
    rw [BitVec.sle_eq_not_slt]
  rw [hsle]
  cases h : r.slt c
  · have e : ((BitVec.ofBool false).setWidth 32).toInt = 0 := by decide
    show Scalar.select 1#1 _ _ = _
    rw [select_one, Ideal.ofBits_zero_f32, e]
    simp
  · have e : ((BitVec.ofBool true).setWidth 32).toInt = 1 := by decide
    show Scalar.select 0#1 _ _ = _
    rw [select_zero, ofBits_one, e]
    simp

end Cert.Attention

end
-- ==== Proof.RefValue.lean ====
/-
  The reference, read entry by entry, is the specification.

  The reference computes on whole arrays: the scores of all 4 × 16 × 2048 × 2048 (batch, head, query, key) entries,
  a 2048 × 2048 causal mask broadcast over batch and head, the padding words broadcast over head and query, a softmax
  along the key axis and a batched product with the values. Read at `(b, h, q, k)` each stage depends only on query row
  `(b, h, q)`, the keys and values of `(b, h)` and the padding words of batch `b`: the specification's row functions
  (Proof/Spec.lean). Two steps differ in form from the specification and are joined by Proof/Consts.lean's laws: the
  mask is "select 0 where row >= column, else 1" (`future_law`), and the scores are divided by the square root of 64
  (`scale_law`). The row maximum is the host's fold of max along the key axis from minus infinity.
-/
import proofs.«153860_j39651138076910_2_alg».proof.Proof.RefRead
import proofs.«153860_j39651138076910_2_alg».proof.Proof.Spec
import proofs.«153860_j39651138076910_2_alg».proof.Proof.Consts
import Idealize.ShloMosaic.PureOps.Ideal.Laws
import Idealize.ShloMosaic.Lib.ValueIdx

noncomputable section

namespace Cert.ReferenceIdeal.RefValue

open Cert.ReferenceIdeal Cert.ReferenceIdeal.Gen Cert.ReferenceIdeal.ReadP Cert.Attention
open Idealize.ShloMosaic Idealize.ShloMosaic.ValueIdx

variable (Q K V : (⟨S4x16x2048x64, .f32⟩ : BufTy).Contents (Elt Ideal)) (P : (⟨S4x1x1x2048, .i32⟩ : BufTy).Contents (Elt Ideal))

/-- The masked scores at `(b, h, q, k)`. -/
theorem masked_ref (b : Fin 4) (h : Fin 16) (q k : Fin 2048) :
    val_main_v13 (F := Ideal) Q K P (ix4 b h q k)
      = maskedRow (fun d => Q (ix4 b h q d)) (fun k' d => K (ix4 b h k' d)) (fun k' => P (ix4 b (0 : Fin 1) (0 : Fin 1) k'))
          (BitVec.ofNat 32 q.val) k := by
  have e1 : ∀ d, lidx_main_v0 (ix4 b h q k) d = ix4 b h q d := fun d => funext fun a => by
    match a with | ⟨0, _⟩ => rfl | ⟨1, _⟩ => rfl | ⟨2, _⟩ => rfl | ⟨3, _⟩ => rfl
  have e2 : ∀ d, ridx_main_v0 (ix4 b h q k) d = ix4 b h k d := fun d => funext fun a => by
    match a with | ⟨0, _⟩ => rfl | ⟨1, _⟩ => rfl | ⟨2, _⟩ => rfl | ⟨3, _⟩ => rfl
  have e3 : idx_main_v9 (idx_main_call1_v0 (ix4 b h q k)) = ix4 b (0 : Fin 1) (0 : Fin 1) k := funext fun a => by
    match a with | ⟨0, _⟩ => rfl | ⟨1, _⟩ => rfl | ⟨2, _⟩ => rfl | ⟨3, _⟩ => rfl
  rw [val_main_v13_apply, val_main_call1_v0_apply, val_main_v12_apply, val_main_v10_apply, val_main_v8_apply, val_main_v7_apply,
    val_main_v5_apply, val_main_call0_v4_apply, val_main_call0_v2_apply, val_main_call0_v0_apply, val_main_call0_v1_apply,
    val_main_call0_c_apply, val_main_call0_v3_apply, val_main_call0_v5_apply, val_main_call0_cst_apply, val_main_v4_apply,
    val_main_cst_0_apply, val_main_v9_apply, val_main_v6_apply, e3, val_main_v11_apply, val_main_cst_1_apply,
    val_main_call1_v1_apply, val_main_cst_2_apply, val_main_v3_apply, val_main_v0_apply, val_main_v2_apply, val_main_v1_apply,
    val_main_cst_apply]
  simp only [e1, e2]
  show Scalar.select (Ideal.cmp .oeq
        (Scalar.select (IntOp.cmpi .sge (IntOp.addi (BitVec.ofNat 32 q.val) 0#32) (BitVec.ofNat 32 k.val))
            (Ideal.ofBits .f32 0x00000000#32) (Ideal.ofBits .f32 0x3F800000#32)
          + (((P (ix4 b (0 : Fin 1) (0 : Fin 1) k)).toInt : ℝ) : EReal))
        (Ideal.ofBits .f32 0x3F800000#32))
      (Ideal.ofBits .f32 0xCE6E6B28#32)
      (Ideal.div (∑ d : Fin 64, Q (ix4 b h q d) * K (ix4 b h k d)) (Ideal.sqrt (Ideal.ofBits .f32 0x42800000#32))) = _
  rw [future_law, scale_law]
  rfl

/-- The key axis is the one the softmax reduces over. -/
theorem keyAxis : S4x16x2048x2048.Reduces [3] S4x16x2048 := by decide

/-- The entry of the scores a reduction at `(b, h, q)` meets at key `k` is `(b, h, q, k)`. -/
theorem lift_key (b : Fin 4) (h : Fin 16) (q k : Fin 2048) : keyAxis.lift (ix3 b h q) k = ix4 b h q k :=
  funext fun a => Fin.ext (by
    match a with | ⟨0, _⟩ => rfl | ⟨1, _⟩ => rfl | ⟨2, _⟩ => rfl | ⟨3, _⟩ => rfl)

/-- The row maximum at `(b, h, q)`. -/
theorem top_ref (b : Fin 4) (h : Fin 16) (q : Fin 2048) :
    val_main_v16 (F := Ideal) Q K P (ix3 b h q) = rowTop (fun k => val_main_v13 (F := Ideal) Q K P (ix4 b h q k)) := by
  rw [val_main_v16_apply, val_main_v15_apply, val_main_cst_4_apply]
  unfold val_main_v14
  rw [Host.reduce_eq_fold_single FloatOps.maximumf _ _ reducesTo_S4x16x2048x2048_S4x16x2048_d3 keyAxis h_S_ (ix3 b h q),
    val_main_cst_3_apply]
  have hf : (val_main_v13 (F := Ideal) Q K P ∘ keyAxis.lift (ix3 b h q)) = fun k => val_main_v13 (F := Ideal) Q K P (ix4 b h q k) :=
    funext fun k => congrArg (val_main_v13 (F := Ideal) Q K P) (lift_key b h q k)
  rw [hf]
  rfl

/-- The exponentials at `(b, h, q, k)`. -/
theorem expo_ref (b : Fin 4) (h : Fin 16) (q k : Fin 2048) :
    val_main_v20 (F := Ideal) Q K P (ix4 b h q k)
      = Ideal.exp (val_main_v13 (F := Ideal) Q K P (ix4 b h q k) - rowTop (fun k' => val_main_v13 (F := Ideal) Q K P (ix4 b h q k'))) := by
  have i18 : idx_main_v17 (idx_main_v18 (ix4 b h q k)) = ix3 b h q := funext fun a => by
    match a with | ⟨0, _⟩ => rfl | ⟨1, _⟩ => rfl | ⟨2, _⟩ => rfl
  rw [val_main_v20_apply, val_main_v19_apply, val_main_v18_apply, val_main_v17_apply, i18, top_ref]
  rfl

/-- The attention weights at `(b, h, q, k)`. -/
theorem weights_ref (b : Fin 4) (h : Fin 16) (q k : Fin 2048) :
    val_main_v24 (F := Ideal) Q K P (ix4 b h q k) = weightsAt Q K P b h q k := by
  have i23 : idx_main_v22 (idx_main_v23 (ix4 b h q k)) = ix3 b h q := funext fun a => by
    match a with | ⟨0, _⟩ => rfl | ⟨1, _⟩ => rfl | ⟨2, _⟩ => rfl
  have i21 : ∀ k', idx_main_v21 (ix3 b h q) k' = ix4 b h q k' := fun k' => funext fun a => by
    match a with | ⟨0, _⟩ => rfl | ⟨1, _⟩ => rfl | ⟨2, _⟩ => rfl | ⟨3, _⟩ => rfl
  rw [val_main_v24_apply, val_main_v23_apply, val_main_v22_apply, i23, val_main_v21_apply, val_main_cst_5_apply]
  simp only [i21, expo_ref, masked_ref]
  show Ideal.div _ (Ideal.ofBits .f32 0x00000000#32 + _) = _
  rw [Ideal.ofBits_zero_f32, zero_add]
  rfl

/-- The reference's attention weights are the specification's. -/
theorem weights_eq : val_main_v24 (F := Ideal) Q K P = weights Q K P := by
  funext j
  obtain ⟨b, h, q, k, rfl⟩ : ∃ (b : Fin 4) (h : Fin 16) (q k : Fin 2048), j = ix4 b h q k := ⟨j 0, j 1, j 2, j 3, eq_ix4 j⟩
  exact weights_ref Q K P b h q k

/-- The reference's result is the specification's. -/
theorem result_eq : val_main_v25 (F := Ideal) Q K V P = result Q K V P := by
  funext j
  obtain ⟨b, h, q, d, rfl⟩ : ∃ (b : Fin 4) (h : Fin 16) (q : Fin 2048) (d : Fin 64), j = ix4 b h q d := ⟨j 0, j 1, j 2, j 3, eq_ix4 j⟩
  have el : ∀ k, lidx_main_v25 (ix4 b h q d) k = ix4 b h q k := fun k => funext fun a => by
    match a with | ⟨0, _⟩ => rfl | ⟨1, _⟩ => rfl | ⟨2, _⟩ => rfl | ⟨3, _⟩ => rfl
  have er : ∀ k, ridx_main_v25 (ix4 b h q d) k = ix4 b h k d := fun k => funext fun a => by
    match a with | ⟨0, _⟩ => rfl | ⟨1, _⟩ => rfl | ⟨2, _⟩ => rfl | ⟨3, _⟩ => rfl
  rw [val_main_v25_apply]
  simp only [el, er, weights_ref]
  rfl

end Cert.ReferenceIdeal.RefValue

end
-- ==== Proof.lean ====
/-
  Masked scaled-dot-product attention: a tiled kernel against its whole-array reference, over the extended reals.

  Inputs: queries, keys and values `[4, 16, 2048, 64]` (batch, head, position, feature) and integer padding words
  `[4, 1, 1, 2048]` (batch, key position). Both programs return the attention result `[4, 16, 2048, 64]` and the
  attention weights `[4, 16, 2048, 2048]`. For query row `q` of `(b, h)`:

    score k  = (sum over the 64 features of Q[b,h,q,·] * K[b,h,k,·]) scaled by 1/8,
    masked k = -1e9 where [k > q] + pad[b,k] = 1 (exactly one of "future" and "padded"), else score k,
    weight k = softmax of masked over the 2048 keys,   result d = sum over k of weight k * V[b,h,k,d].

  The kernel walks a grid of 4 × 16 × 8 points, 256 query rows at a time, and multiplies the scores by the literal
  0.125; the reference works on whole arrays and divides by the square root of the literal 64. At the exact instance a
  change of float format is the identity, the matrix unit's product into a zero accumulator and the host's
  dot_general are the same sums, and the two row reductions are the same fold and sum; the two programs then differ
  only in the scale (sqrt 64 = 8, and x / 8 = x * (1/8) on every extended real) and in how the causal mask's 0/1 is
  spelt (the converted bit of "column > row" against "select 0 where row >= column, else 1"). Neither law needs the
  inputs to be finite, so the precondition is not used.

  Proof/Spec.lean states the two arrays as functions of the arguments; Proof/KernelBlock.lean and Proof/KernelValue.lean
  show the idealized kernel's run ends with them; Proof/RefValue.lean shows the reference's run does. The three frame
  claims are the programs' runs with the results dropped; the idealization rewrote nothing, so `preserves` is trivial.
-/
import proofs.«153860_j39651138076910_2_alg».proof.Defs
import proofs.«153860_j39651138076910_2_alg».proof.Proof.Gen.Kernel
import proofs.«153860_j39651138076910_2_alg».proof.Proof.FrameKernel
import proofs.«153860_j39651138076910_2_alg».proof.Proof.Gen.KernelIdeal
import proofs.«153860_j39651138076910_2_alg».proof.Proof.FrameKernelIdeal
import proofs.«153860_j39651138076910_2_alg».proof.Proof.Gen.ReferenceIdeal
import proofs.«153860_j39651138076910_2_alg».proof.Proof.RefRun
import proofs.«153860_j39651138076910_2_alg».proof.Proof.RefRead
import proofs.«153860_j39651138076910_2_alg».proof.Proof.Gen.Pre_finite_inputs
import proofs.«153860_j39651138076910_2_alg».proof.Proof.KernelValue
import proofs.«153860_j39651138076910_2_alg».proof.Proof.RefValue
import Idealize.ShloMosaic.Adequacy
import Idealize.ShloMosaic.Init

noncomputable section

namespace Cert.Proof

open Idealize.ShloMosaic Idealize.ShloMosaic.TcCoe Idealize.SL.Sem Cert.Attention

/-- The word-level kernel terminates without a fault and leaves its arguments unchanged. -/
theorem frame_kernel : Cert.frame_Kernel := fun m ρ _ => Cert.Kernel.GenP.frame m ρ

/-- So does the idealized kernel. -/
theorem frame_kernelIdeal : Cert.frame_KernelIdeal := fun m ρ _ => Cert.KernelIdeal.GenP.frame m ρ

/-- So does the reference: its run, with what it says of the two results dropped. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

/-- The idealization rewrote no operation. -/
theorem preserves : Cert.preserves_Kernel_KernelIdeal := trivial

/-- From memories agreeing on the four arguments, both programs end with the specification's result and attention
    weights of those arguments. -/
theorem algebraic : Cert.algebraic_KernelIdeal_ReferenceIdeal := by
  intro m ρ m' ρ' _ hagree
  refine ⟨_, _, Cert.KernelIdeal.ArrayValue.run m ρ, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · rw [Cert.ReferenceIdeal.ReadP.val_main_v25_eq, Cert.ReferenceIdeal.RefValue.result_eq, (hagree c).1, (hagree c).2.1,
      (hagree c).2.2.1, (hagree c).2.2.2]
  · rw [Cert.ReferenceIdeal.ReadP.val_main_v24_eq, Cert.ReferenceIdeal.RefValue.weights_eq, (hagree c).1, (hagree c).2.1,
      (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
